-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S1600000x8 : Shape := ⟨2, ![1600000, 8]⟩
abbrev S40x64 : Shape := ⟨2, ![40, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S50000 : Shape := ⟨1, ![50000]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S50000x16 .f32) (main_arg1 : FVec F S1600000x8 .f32) (main_arg2 : FVec F S40x64 .f32) (main_arg3 : FVec F S64 .f32) (main_arg4 : FVec F S64x64 .f32) (main_arg5 : FVec F S64 .f32) (main_arg6 : FVec F S64x1 .f32) (main_arg7 : FVec F S1 .f32) (main_arg8 : IVec S2x1600000 32) (main_arg9 : IVec S50000 32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S1600000x8 .f32 := Host.absf main_arg1
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S40x64 .f32 := Host.absf main_arg2
  let main_cst_2 : FVec F S_ .f32 := constant S_ .f32 0x7F800000#32
  let main_v10 : FVec F S40x64 .f32 := broadcastInDim S40x64 ![] bcast_S_S40x64 main_cst_2
  let main_v11 : IVec S40x64 1 := cmpf .olt main_v9 main_v10
  let main_c_3 : IVec S_ 1 := constantI S_ 1 1#1
  let main_v12 : IVec S_ 1 := (fun x v => Host.reduce IntOp.andi x v reducesTo_S40x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S50000x16 : Shape := ⟨2, ![50000, 16]⟩
abbrev S1600000x8 : Shape := ⟨2, ![1600000, 8]⟩
abbrev S40x64 : Shape := ⟨2, ![40, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S6400x16 : Shape := ⟨2, ![6400, 16]⟩
abbrev S6400x8 : Shape := ⟨2, ![6400, 8]⟩
abbrev S6400x1 : Shape := ⟨2, ![6400, 1]⟩
abbrev S6400x40 : Shape := ⟨2, ![6400, 40]⟩
abbrev S6400x64 : Shape := ⟨2, ![6400, 64]⟩
abbrev S1x64 : Shape := ⟨2, ![1, 64]⟩
abbrev S1x1 : Shape := ⟨2, ![1, 1]⟩
abbrev S50000x1 : Shape := ⟨2, ![50000, 1]⟩
abbrev S500x1 : Shape := ⟨2, ![500, 1]⟩
abbrev S500 : Shape := ⟨1, ![500]⟩

abbrev nBuf : Space → Nat
  | .hbm => 45
  | .vmem => 14
  | .smem => 0
  | _ => 0

abbrev bufTy : (tb : Table) → Fin (tcTables nBuf tb) → BufTy
  | .hbm, ⟨0, _⟩ => ⟨S50000x16, .f32⟩
  | .hbm, ⟨1, _⟩ => ⟨S1600000x8, .f32⟩
  | .hbm, ⟨2, _⟩ => ⟨S40x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S2x1600000, .i32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x16, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x16, .f32⟩
  | .hbm, ⟨32, _⟩ => ⟨S1600000x1, .f32⟩
  | .hbm, ⟨33, _⟩ => ⟨S_, .f32⟩
  | .hbm, ⟨34, _⟩ => ⟨S50000x1, .f32⟩
  | .hbm, ⟨35, _⟩ => ⟨S1600000x1, .i32⟩
  | .hbm, ⟨36, _⟩ => ⟨S50000x1, .f32⟩
  | .hbm, ⟨37, _⟩ => ⟨S_, .f32⟩
  | .hbm, ⟨38, _⟩ => ⟨S500x1, .f32⟩
  | .hbm, ⟨39, _⟩ => ⟨S50000x1, .i32⟩
  | .hbm, ⟨40, _⟩ => ⟨S500x1, .f32⟩
  | .hbm, ⟨41, _⟩ => ⟨S500, .f32⟩
  | .hbm, ⟨42, _⟩ => ⟨S_, .f32⟩
  | .hbm, ⟨43, _⟩ => ⟨S500, .f32⟩
  | .hbm, ⟨44, _⟩ => ⟨S500, .f32⟩
  | .local _ .vmem, ⟨0, _⟩ => ⟨S6400x16, .f32⟩
  | .local _ .vmem, ⟨1, _⟩ => ⟨S6400x16, .f32⟩
  | .local _ .vmem, ⟨2, _⟩ => ⟨S6400x16, .f32⟩
  | .local _ .vmem, ⟨3, _⟩ => ⟨S6400x16, .f32⟩
  | .local _ .vmem, ⟨4, _⟩ => ⟨S6400x8, .f32⟩
  | .local _ .vmem, ⟨5, _⟩ => ⟨S6400x8, .f32⟩
  | .local _ .vmem, ⟨6, _⟩ => ⟨S40x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x1, .f32⟩
  | .local _ .vmem, ⟨11, _⟩ => ⟨S1, .f32⟩
  | .local _ .vmem, ⟨12, _⟩ => ⟨S6400x1, .f32⟩
  | .local _ .vmem, ⟨13, _⟩ => ⟨S6400x1, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S40x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  inb_S6400x8_S6400x8_0_0 : ∀ a, (![0, 0] : Fin 2 → Nat) a + S6400x8.size a ≤ S6400x8.size a
  h_S6400x8 : 0 < S6400x8.numel
  concatenates_S6400x16_S6400x16_S6400x8_S6400x40_d1 : Shape.Concatenates [S6400x16, S6400x16, S6400x8] S6400x40 1
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S64_S64_0 : ∀ a, (![0] : Fin 1 → Nat) a + S64.size a ≤ S64.size a
  h_S64 : 0 < S64.numel
  shapeCasts_S64_S1x64 : S64.ShapeCasts S1x64
  broadcasts_S1x64_S6400x64 : S1x64.Broadcasts S6400x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  bcast_S_S50000x1 : S_.BroadcastsInDim S50000x1 (![] : Fin 0 → Fin S50000x1.rank)
  bcast_S_S500x1 : S_.BroadcastsInDim S500x1 (![] : Fin 0 → Fin S500x1.rank)
  bcast_S50000_S50000x1_0 : S50000.BroadcastsInDim S50000x1 (![0] : Fin 1 → Fin S50000x1.rank)
  shapeCasts_S500x1_S500 : S500x1.ShapeCasts S500
  bcast_S_S500 : S_.BroadcastsInDim S500 (![] : Fin 0 → Fin S500.rank)
  gather_S50000x16_S1600000x1_S1600000x16_1_0_n_n_0_1_116_wf : GatherDims.WF S50000x16 S1600000x1 S1600000x16 [1] [0] [] [0] [] 1 ![1, 16]
  dot_S6400x40_S40x64_S6400x64_1_0_0_1_n_n_wf : DotDims.WF S6400x40 S40x64 S6400x64 [1] [0] [0] [1] [] []
  dot_S6400x64_S64x64_S6400x64_1_0_0_1_n_n_wf : DotDims.WF S6400x64 S64x64 S6400x64 [1] [0] [0] [1] [] []
  dot_S6400x64_S64x1_S6400x1_1_0_0_1_n_n_wf : DotDims.WF S6400x64 S64x1 S6400x1 [1] [0] [0] [1] [] []
  scatter_S50000x1_S1600000x1_S1600000x1_1_0_0_1_wf : ScatterDims.WF S50000x1 S1600000x1 S1600000x1 [1] [0] [0] 1
  scatter_S500x1_S50000x1_S50000x1_1_0_0_1_wf : ScatterDims.WF S500x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x16.size a ≤ S1600000x16.size a
  hwx0_0 : ∀ i : grid0.Coords, EltTy.bits .f32 = 32 ∨ (Rect.block (s := S1600000x16) S6400x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x16.size a ≤ S1600000x16.size a
  hwx0_1 : ∀ i : grid0.Coords, EltTy.bits .f32 = 32 ∨ (Rect.block (s := S1600000x16) S6400x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x8.size a ≤ S1600000x8.size a
  hwx0_2 : ∀ i : grid0.Coords, EltTy.bits .f32 = 32 ∨ (Rect.block (s := S1600000x8) S6400x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x64.size a ≤ S40x64.size a
  hwx0_3 : ∀ i : grid0.Coords, EltTy.bits .f32 = 32 ∨ (Rect.block (s := S40x64) S40x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x1.size a ≤ S1600000x1.size a
  hwx0_9 : ∀ i : grid0.Coords, EltTy.bits .f32 = 32 ∨ (Rect.block (s := S1600000x1) S6400x1.size (cc0_transform_9 i) (hinb0_9 i)).WholeWords (EltTy.packing .f32)

variable [Facts₀]

def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S6400x40_S40x64_S6400x64_1_0_0_1_n_n : DotDims S6400x40 S40x64 S6400x64 where
  lhsContracting := [1]
  rhsContracting := [0]
  lhsNonContracting := [0]
  rhsNonContracting := [1]
  lhsBatch := []
  rhsBatch := []
  wf := dot_S6400x40_S40x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf

abbrev win0_0 : Pipeline.Window sig grid0 :=
  Pipeline.Window.ofSpec (Memref.whole main_v10) S6400x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S6400x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S40x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S6400x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x16 : Shape := ⟨2, ![50000, 16]⟩
abbrev S1600000x8 : Shape := ⟨2, ![1600000, 8]⟩
abbrev S40x64 : Shape := ⟨2, ![40, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S1600000x40 : Shape := ⟨2, ![1600000, 40]⟩
abbrev S1600000x64 : Shape := ⟨2, ![1600000, 64]⟩
abbrev S1x64 : Shape := ⟨2, ![1, 64]⟩
abbrev S1x1 : Shape := ⟨2, ![1, 1]⟩
abbrev S50000x1 : Shape := ⟨2, ![50000, 1]⟩
abbrev S500x1 : Shape := ⟨2, ![500, 1]⟩
abbrev S500 : Shape := ⟨1, ![500]⟩

abbrev nBuf : Space → Nat
  | .hbm => 63
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S1600000x8, .f32⟩
  | .hbm, ⟨2, _⟩ => ⟨S40x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S2x1600000, .i32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x16, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x16, .f32⟩
  | .hbm, ⟨32, _⟩ => ⟨S1600000x40, .f32⟩
  | .hbm, ⟨33, _⟩ => ⟨S1600000x64, .f32⟩
  | .hbm, ⟨34, _⟩ => ⟨S1x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S1600000x64, .f32⟩
  | .hbm, ⟨39, _⟩ => ⟨S1600000x64, .f32⟩
  | .hbm, ⟨40, _⟩ => ⟨S1600000x64, .f32⟩
  | .hbm, ⟨41, _⟩ => ⟨S1x64, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S1600000x64, .f32⟩
  | .hbm, ⟨46, _⟩ => ⟨S1600000x64, .f32⟩
  | .hbm, ⟨47, _⟩ => ⟨S1600000x1, .f32⟩
  | .hbm, ⟨48, _⟩ => ⟨S1x1, .f32⟩
  | .hbm, ⟨49, _⟩ => ⟨S1600000x1, .f32⟩
  | .hbm, ⟨50, _⟩ => ⟨S1600000x1, .f32⟩
  | .hbm, ⟨51, _⟩ => ⟨S_, .f32⟩
  | .hbm, ⟨52, _⟩ => ⟨S50000x1, .f32⟩
  | .hbm, ⟨53, _⟩ => ⟨S1600000x1, .i32⟩
  | .hbm, ⟨54, _⟩ => ⟨S50000x1, .f32⟩
  | .hbm, ⟨55, _⟩ => ⟨S_, .f32⟩
  | .hbm, ⟨56, _⟩ => ⟨S500x1, .f32⟩
  | .hbm, ⟨57, _⟩ => ⟨S50000x1, .i32⟩
  | .hbm, ⟨58, _⟩ => ⟨S500x1, .f32⟩
  | .hbm, ⟨59, _⟩ => ⟨S500, .f32⟩
  | .hbm, ⟨60, _⟩ => ⟨S_, .f32⟩
  | .hbm, ⟨61, _⟩ => ⟨S500, .f32⟩
  | .hbm, ⟨62, _⟩ => ⟨S500, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x16_S1600000x16_S1600000x8_S1600000x40_d1 : Shape.Concatenates [S1600000x16, S1600000x16, S1600000x8] S1600000x40 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S50000x1 : S_.BroadcastsInDim S50000x1 (![] : Fin 0 → Fin S50000x1.rank)
  bcast_S_S500x1 : S_.BroadcastsInDim S500x1 (![] : Fin 0 → Fin S500x1.rank)
  bcast_S50000_S50000x1_0 : S50000.BroadcastsInDim S50000x1 (![0] : Fin 1 → Fin S50000x1.rank)
  shapeCasts_S500x1_S500 : S500x1.ShapeCasts S500
  bcast_S_S500 : S_.BroadcastsInDim S500 (![] : Fin 0 → Fin S500.rank)
  gather_S50000x16_S1600000x1_S1600000x16_1_0_n_n_0_1_116_wf : GatherDims.WF S50000x16 S1600000x1 S1600000x16 [1] [0] [] [0] [] 1 ![1, 16]
  dot_S1600000x40_S40x64_S1600000x64_1_0_0_1_n_n_wf : DotDims.WF S1600000x40 S40x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S50000x1_S1600000x1_S1600000x1_1_0_0_1_wf : ScatterDims.WF S50000x1 S1600000x1 S1600000x1 [1] [0] [0] 1
  scatter_S500x1_S50000x1_S50000x1_1_0_0_1_wf : ScatterDims.WF S500x1 S50000x1 S50000x1 [1] [0] [0] 1

variable [Facts₀]

def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S1600000x40_S40x64_S1600000x64_1_0_0_1_n_n : DotDims S1600000x40 S40x64 S1600000x64 where
  lhsContracting := [1]
  rhsContracting := [0]
  lhsNonContracting := [0]
  rhsNonContracting := [1]
  lhsBatch := []
  rhsBatch := []
  wf := dot_S1600000x40_S40x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf

class Facts : Prop extends Facts₀ where

variable [Facts]
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.LibDenseLayer.lean ====
/-
  A dense layer read at an entry, and cut into blocks of rows, for any sizes.

  A dense layer takes an `n × K` matrix `X`, a `K × C` weight matrix `W` and a `1 × C` bias row `B`; its entry
  `(p, q)` is the sum over `k` of `X (p, k) * W (k, q)`, plus `B (0, q)`. Three facts about it:

  * a kernel body spells the layer as a matrix product accumulated into zero, of the operands narrowed to a shorter
    float format (the identity on extended reals), plus the bias row spread down the rows: that is the layer, entry by
    entry;
  * the input matrix is often several matrices set side by side; three pieces set side by side read, at an entry, the
    piece whose columns hold the entry's column;
  * row `off + r` of the layer over whole matrices is row `r` of the layer over the blocks of rows starting at `off`:
    a layer is computed row by row, so a block of its rows needs only the same block of rows of its input. For an
    input made of pieces set side by side, the pieces' blocks set side by side are the block of the whole.
-/
import Mathlib.Algebra.BigOperators.Fin
import Idealize.ShloMosaic.Lib.Pipeline.Value
import Idealize.ShloMosaic.Lib.ValueIdx
import Idealize.ShloMosaic.PureOps.Ideal.Laws
import proofs.«114200_j41240275976363_2_alg».proof.Proof.LibConcatCols
import proofs.«114200_j41240275976363_2_alg».proof.Proof.LibTwoBlocks

noncomputable section

open scoped BigOperators

namespace Cert.Lib.DenseLayer

open Idealize.ShloMosaic Idealize.ShloMosaic.ValueIdx Cert.Lib.ConcatCols Cert.Lib.TwoBlocks

/-! ## The layer -/

/-- Entry `(p, q)` of the dense layer of `X` (`n × K`), `W` (`K × C`) and the bias row `B` (`1 × C`). -/
def denseAt {n K C : ℕ} (X : (⟨2, ![n, K]⟩ : Shape).Idx → EReal) (W : (⟨2, ![K, C]⟩ : Shape).Idx → EReal)
    (B : (⟨2, ![1, C]⟩ : Shape).Idx → EReal) (p : Fin n) (q : Fin C) : EReal :=
  (∑ k : Fin K, X (ix2 p k) * W (ix2 k q)) + B (ix2 (0 : Fin 1) q)

/-- The layer depends on its input only through the entries of row `p`, and on the weights and the bias as
    functions. -/
theorem denseAt_congr {n n' K C : ℕ} (X : (⟨2, ![n, K]⟩ : Shape).Idx → EReal) (X' : (⟨2, ![n', K]⟩ : Shape).Idx → EReal)
    (W W' : (⟨2, ![K, C]⟩ : Shape).Idx → EReal) (B B' : (⟨2, ![1, C]⟩ : Shape).Idx → EReal) (p : Fin n) (p' : Fin n') (q : Fin C)
    (hX : ∀ k : Fin K, X (ix2 p k) = X' (ix2 p' k)) (hW : W = W') (hB : B = B') :
    denseAt X W B p q = denseAt X' W' B' p' q := by
  subst hW; subst hB
  unfold denseAt
  exact congrArg (· + B (ix2 (0 : Fin 1) q)) (Finset.sum_congr rfl fun k _ => by rw [hX k])

/-- A kernel body's spelling of the layer — the product, accumulated into zero, of the input and the weights, both
    narrowed to a shorter float format, plus the bias row spread down the `n` rows — is the layer, entry by entry. -/
theorem body_entry {n K C : ℕ} {ψ : FTy} (D : DotDims ⟨2, ![n, K]⟩ ⟨2, ![K, C]⟩ ⟨2, ![n, C]⟩) (hD : D = DotDims.plain n K C)
    (prec : Option ContractPrecision)
    (X : FVec Ideal ⟨2, ![n, K]⟩ .f32) (W : FVec Ideal ⟨2, ![K, C]⟩ .f32) (B : FVec Ideal ⟨2, ![1, C]⟩ .f32)
    (hlt : ψ.bits < FTy.f32.bits)
    (hW : (⟨2, ![K, C]⟩ : Shape).ShapeCasts ⟨2, ![K, C]⟩) (hB : (⟨2, ![1, C]⟩ : Shape).ShapeCasts ⟨2, ![1, C]⟩)
    (hbc : (⟨2, ![1, C]⟩ : Shape).Broadcasts ⟨2, ![n, C]⟩) (p : Fin n) (q : Fin C) :
    addf (matmul D prec (truncf ψ X hlt) (truncf ψ (shapeCast ⟨2, ![K, C]⟩ W hW) hlt) (constant ⟨2, ![n, C]⟩ .f32 0x00000000#32))
        (broadcastTo ⟨2, ![n, C]⟩ (shapeCast ⟨2, ![1, C]⟩ B hB) hbc) (ix2 p q)
      = denseAt X W B p q := by
  rw [addf_apply, shapeCast_self, shapeCast_self, plain_matmul_zero_apply D hD prec _ _ p q]
  unfold denseAt
  refine congrArg₂ (· + ·) rfl ?_
  refine broadcastTo_apply B hbc (ix2 p q) (ix2 (0 : Fin 1) q) fun a => ?_
  match a with
  | ⟨0, _⟩ => exact (if_pos rfl).symm
  | ⟨1, _⟩ =>
    show q.val = if C = 1 then 0 else q.val
    have hq := q.isLt
    split <;> omega

/-- A host matrix product of an `M × K` by a `K × N` matrix (any dimension numbers that contract the left operand's
    columns with the right operand's rows and batch nothing) reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  simp only [Host.dotGeneral]
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

/-- A host program's spelling of the layer — the host matrix product of the input and the weights plus an `n × C`
    array `Bn` that holds the bias row in every row — is the layer, entry by entry. -/
theorem host_entry {n K C : ℕ} (D : DotDims ⟨2, ![n, K]⟩ ⟨2, ![K, C]⟩ ⟨2, ![n, C]⟩) (hD : D = DotDims.plain n K C)
    (prec : Option ContractPrecision)
    (X : FVec Ideal ⟨2, ![n, K]⟩ .f32) (W : FVec Ideal ⟨2, ![K, C]⟩ .f32) (Bn : FVec Ideal ⟨2, ![n, C]⟩ .f32)
    (B : FVec Ideal ⟨2, ![1, C]⟩ .f32) (p : Fin n) (q : Fin C) (hB : Bn (ix2 p q) = B (ix2 (0 : Fin 1) q)) :
    addf (Host.dotGeneral D prec X W) Bn (ix2 p q) = denseAt X W B p q := by
  rw [addf_apply, plain_dotGeneral_apply D hD prec X W p q, hB]
  rfl

/-! ## Three matrices set side by side -/

variable {α : Type}

/-- A column of the first of three pieces. -/
theorem concat_cols3_first {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₁ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 0 (by show (0 : ℕ) < 3; omega) ⟨2, ![a, b₁]⟩ x₁ rfl rfl 0 rfl (ix2 i k)
    (fun b hb => by
      match b with
      | ⟨0, _⟩ => rfl
      | ⟨1, _⟩ => exact absurd rfl hb)
    (by show 0 + k.val = j.val; omega)

/-- A column of the second of three pieces. -/
theorem concat_cols3_second {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₂ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 1 (by show (1 : ℕ) < 3; omega) ⟨2, ![a, b₂]⟩ x₂ rfl rfl b₁ (by simp) (ix2 i k)
    (fun b hb => by
      match b with
      | ⟨0, _⟩ => rfl
      | ⟨1, _⟩ => exact absurd rfl hb)
    (by show b₁ + k.val = j.val; exact hk)

/-- A column of the third of three pieces. -/
theorem concat_cols3_third {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₃) (hk : b₁ + b₂ + k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₃ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 2 (by show (2 : ℕ) < 3; omega) ⟨2, ![a, b₃]⟩ x₃ rfl rfl (b₁ + b₂) (by simp) (ix2 i k)
    (fun b hb => by
      match b with
      | ⟨0, _⟩ => rfl
      | ⟨1, _⟩ => exact absurd rfl hb)
    (by show b₁ + b₂ + k.val = j.val; exact hk)

/-! ## Blocks of rows of matrices set side by side -/

/-- Two pieces: if each block piece holds the rows of its whole piece starting at `off`, the block pieces set side by
    side hold those rows of the whole pieces set side by side. -/
theorem concat2_rows_block {n N b₁ b₂ K : ℕ} (hK : b₁ + b₂ = K) (off : ℕ)
    (A : (⟨2, ![N, b₁]⟩ : Shape).Idx → α) (A' : (⟨2, ![N, b₂]⟩ : Shape).Idx → α)
    (Ab : (⟨2, ![n, b₁]⟩ : Shape).Idx → α) (Ab' : (⟨2, ![n, b₂]⟩ : Shape).Idx → α)
    (h : Shape.Concatenates [⟨2, ![N, b₁]⟩, ⟨2, ![N, b₂]⟩] ⟨2, ![N, K]⟩ 1)
    (hb : Shape.Concatenates [⟨2, ![n, b₁]⟩, ⟨2, ![n, b₂]⟩] ⟨2, ![n, K]⟩ 1)
    (r : Fin n) (R : Fin N)
    (hA : ∀ k : Fin b₁, Ab (ix2 r k) = A (ix2 R k)) (hA' : ∀ k : Fin b₂, Ab' (ix2 r k) = A' (ix2 R k)) (k : Fin K) :
    concatenate ⟨2, ![n, K]⟩ 1 [⟨⟨2, ![n, b₁]⟩, Ab⟩, ⟨⟨2, ![n, b₂]⟩, Ab'⟩] hb (ix2 r k)
      = concatenate ⟨2, ![N, K]⟩ 1 [⟨⟨2, ![N, b₁]⟩, A⟩, ⟨⟨2, ![N, b₂]⟩, A'⟩] h (ix2 R k) := by
  have hk := k.isLt
  by_cases h1 : k.val < b₁
  · rw [concat_cols_left Ab Ab' hb r k ⟨k.val, h1⟩ rfl, concat_cols_left A A' h R k ⟨k.val, h1⟩ rfl]
    exact hA _
  · have h2 : k.val - b₁ < b₂ := by omega
    rw [concat_cols_right Ab Ab' hb r k ⟨k.val - b₁, h2⟩ (by show b₁ + (k.val - b₁) = k.val; omega),
      concat_cols_right A A' h R k ⟨k.val - b₁, h2⟩ (by show b₁ + (k.val - b₁) = k.val; omega)]
    exact hA' _

/-- Three pieces: the same. -/
theorem concat3_rows_block {n N b₁ b₂ b₃ K : ℕ} (hK : b₁ + b₂ + b₃ = K) (off : ℕ)
    (A : (⟨2, ![N, b₁]⟩ : Shape).Idx → α) (A' : (⟨2, ![N, b₂]⟩ : Shape).Idx → α) (A'' : (⟨2, ![N, b₃]⟩ : Shape).Idx → α)
    (Ab : (⟨2, ![n, b₁]⟩ : Shape).Idx → α) (Ab' : (⟨2, ![n, b₂]⟩ : Shape).Idx → α) (Ab'' : (⟨2, ![n, b₃]⟩ : Shape).Idx → α)
    (h : Shape.Concatenates [⟨2, ![N, b₁]⟩, ⟨2, ![N, b₂]⟩, ⟨2, ![N, b₃]⟩] ⟨2, ![N, K]⟩ 1)
    (hb : Shape.Concatenates [⟨2, ![n, b₁]⟩, ⟨2, ![n, b₂]⟩, ⟨2, ![n, b₃]⟩] ⟨2, ![n, K]⟩ 1)
    (r : Fin n) (R : Fin N)
    (hA : ∀ k : Fin b₁, Ab (ix2 r k) = A (ix2 R k)) (hA' : ∀ k : Fin b₂, Ab' (ix2 r k) = A' (ix2 R k))
    (hA'' : ∀ k : Fin b₃, Ab'' (ix2 r k) = A'' (ix2 R k)) (k : Fin K) :
    concatenate ⟨2, ![n, K]⟩ 1 [⟨⟨2, ![n, b₁]⟩, Ab⟩, ⟨⟨2, ![n, b₂]⟩, Ab'⟩, ⟨⟨2, ![n, b₃]⟩, Ab''⟩] hb (ix2 r k)
      = concatenate ⟨2, ![N, K]⟩ 1 [⟨⟨2, ![N, b₁]⟩, A⟩, ⟨⟨2, ![N, b₂]⟩, A'⟩, ⟨⟨2, ![N, b₃]⟩, A''⟩] h (ix2 R k) := by
  have hk := k.isLt
  by_cases h1 : k.val < b₁
  · rw [concat_cols3_first Ab Ab' Ab'' hb r k ⟨k.val, h1⟩ rfl, concat_cols3_first A A' A'' h R k ⟨k.val, h1⟩ rfl]
    exact hA _
  · by_cases h2 : k.val < b₁ + b₂
    · have h3 : k.val - b₁ < b₂ := by omega
      rw [concat_cols3_second Ab Ab' Ab'' hb r k ⟨k.val - b₁, h3⟩ (by show b₁ + (k.val - b₁) = k.val; omega),
        concat_cols3_second A A' A'' h R k ⟨k.val - b₁, h3⟩ (by show b₁ + (k.val - b₁) = k.val; omega)]
      exact hA' _
    · have h3 : k.val - (b₁ + b₂) < b₃ := by omega
      rw [concat_cols3_third Ab Ab' Ab'' hb r k ⟨k.val - (b₁ + b₂), h3⟩ (by show b₁ + b₂ + (k.val - (b₁ + b₂)) = k.val; omega),
        concat_cols3_third A A' A'' h R k ⟨k.val - (b₁ + b₂), h3⟩ (by show b₁ + b₂ + (k.val - (b₁ + b₂)) = k.val; omega)]
      exact hA'' _

end Cert.Lib.DenseLayer

end
-- ==== Proof.LibPerceptron.lean ====
/-
  One layer of a perceptron read at an entry, for any sizes.

  A layer takes an `n × K` input `X`, a `K × C` weight matrix `W` and a bias VECTOR `b` of length `C`. Its affine
  part at `(p, q)` is the sum over `k` of `X (p, k) * W (k, q)`, plus `b q`; the rectified layer is the larger of that
  and zero (zero being the f32 word `0x00000000`, kept as a word). Both depend on `X` through row `p` only.

  Two spellings of a layer are that entry:
  * a kernel body's — the product, accumulated into zero, of the input and the weights narrowed to a shorter float
    format (the identity on extended reals), plus the bias laid out as a `1 × C` row and spread down the `n` rows,
    and for the rectified layer the maximum with zero spread over the whole `n × C` shape;
  * a host program's — the host matrix product plus the bias laid out as a `1 × C` row and then spread to `n × C`,
    and for the rectified layer the maximum with a scalar zero spread to `n × C`.

  Three layers stacked (rectified, rectified, affine), each fed the table of the one before, are `mlp3At`; it is
  computed row by row, and both spellings of the stack are it, entry by entry.
-/
import Mathlib.Algebra.BigOperators.Fin
import Idealize.ShloMosaic.Lib.Pipeline.Value
import Idealize.ShloMosaic.Lib.ValueIdx
import Idealize.ShloMosaic.Lib.ValueLayout
import Idealize.ShloMosaic.PureOps.Ideal.Laws
import proofs.«114200_j41240275976363_2_alg».proof.Proof.LibTwoBlocks
import proofs.«114200_j41240275976363_2_alg».proof.Proof.LibDenseLayer

noncomputable section

open scoped BigOperators

namespace Cert.Lib.Perceptron

open Idealize.ShloMosaic Idealize.ShloMosaic.ValueIdx Cert.Lib.TwoBlocks Cert.Lib.DenseLayer

/-! ## The layer -/

/-- An `a × b` table given entry by entry. -/
def table {a b : ℕ} (f : Fin a → Fin b → EReal) : (⟨2, ![a, b]⟩ : Shape).Idx → EReal := fun j => f (j 0) (j 1)

theorem table_ix2 {a b : ℕ} (f : Fin a → Fin b → EReal) (p : Fin a) (q : Fin b) : table f (ix2 p q) = f p q := rfl

/-- Zero, as the f32 word both spellings print. -/
def zeroWord : EReal := Ideal.ofBits .f32 0x00000000#32

/-- Entry `(p, q)` of the affine part: row `p` of `X` against column `q` of `W`, plus `b q`. -/
def affineAt {n K C : ℕ} (X : (⟨2, ![n, K]⟩ : Shape).Idx → EReal) (W : (⟨2, ![K, C]⟩ : Shape).Idx → EReal)
    (b : (⟨1, ![C]⟩ : Shape).Idx → EReal) (p : Fin n) (q : Fin C) : EReal :=
  (∑ k : Fin K, X (ix2 p k) * W (ix2 k q)) + b (ix1 q)

/-- Entry `(p, q)` of the rectified layer: the larger of the affine part and zero. -/
def reluAt {n K C : ℕ} (X : (⟨2, ![n, K]⟩ : Shape).Idx → EReal) (W : (⟨2, ![K, C]⟩ : Shape).Idx → EReal)
    (b : (⟨1, ![C]⟩ : Shape).Idx → EReal) (p : Fin n) (q : Fin C) : EReal :=
  max (affineAt X W b p q) zeroWord

/-- The affine part reads its input through one row: two inputs, of any heights, that agree on row `p` of one and
    row `p'` of the other give the same entry. -/
theorem affineAt_congr {n n' K C : ℕ} (X : (⟨2, ![n, K]⟩ : Shape).Idx → EReal) (X' : (⟨2, ![n', K]⟩ : Shape).Idx → EReal)
    (W : (⟨2, ![K, C]⟩ : Shape).Idx → EReal) (b : (⟨1, ![C]⟩ : Shape).Idx → EReal) (p : Fin n) (p' : Fin n') (q : Fin C)
    (hX : ∀ k : Fin K, X (ix2 p k) = X' (ix2 p' k)) : affineAt X W b p q = affineAt X' W b p' q := by
  unfold affineAt
  exact congrArg (· + b (ix1 q)) (Finset.sum_congr rfl fun k _ => by rw [hX k])

/-- So does the rectified layer. -/
theorem reluAt_congr {n n' K C : ℕ} (X : (⟨2, ![n, K]⟩ : Shape).Idx → EReal) (X' : (⟨2, ![n', K]⟩ : Shape).Idx → EReal)
    (W : (⟨2, ![K, C]⟩ : Shape).Idx → EReal) (b : (⟨1, ![C]⟩ : Shape).Idx → EReal) (p : Fin n) (p' : Fin n') (q : Fin C)
    (hX : ∀ k : Fin K, X (ix2 p k) = X' (ix2 p' k)) : reluAt X W b p q = reluAt X' W b p' q := by
  unfold reluAt
  rw [affineAt_congr X X' W b p p' q hX]

/-! ## A kernel body's spelling -/

/-- The product into zero of the narrowed operands, plus the bias vector laid out as a row and spread down the rows,
    is the affine part, entry by entry. -/
theorem body_affine_entry {n K C : ℕ} {ψ : FTy} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (hlt : ψ.bits < FTy.f32.bits) (hsc : (⟨1, ![C]⟩ : Shape).ShapeCasts ⟨2, ![1, C]⟩)
    (hbc : (⟨2, ![1, C]⟩ : Shape).Broadcasts ⟨2, ![n, C]⟩) (p : Fin n) (q : Fin C) :
    addf (matmul D prec (truncf ψ X hlt) (truncf ψ W hlt) (constant ⟨2, ![n, C]⟩ .f32 0x00000000#32))
        (broadcastTo ⟨2, ![n, C]⟩ (shapeCast ⟨2, ![1, C]⟩ b hsc) hbc) (ix2 p q)
      = affineAt X W b p q := by
  rw [addf_apply, plain_matmul_zero_apply D hD prec _ _ p q, broadcastTo_1b_ab_apply, shapeCast_a_1a_apply]
  rfl

/-- The same followed by the maximum with zero spread over the whole shape is the rectified layer. -/
theorem body_relu_entry {n K C : ℕ} {ψ : FTy} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (hlt : ψ.bits < FTy.f32.bits) (hsc : (⟨1, ![C]⟩ : Shape).ShapeCasts ⟨2, ![1, C]⟩)
    (hbc : (⟨2, ![1, C]⟩ : Shape).Broadcasts ⟨2, ![n, C]⟩) (p : Fin n) (q : Fin C) :
    maximumf
        (addf (matmul D prec (truncf ψ X hlt) (truncf ψ W hlt) (constant ⟨2, ![n, C]⟩ .f32 0x00000000#32))
          (broadcastTo ⟨2, ![n, C]⟩ (shapeCast ⟨2, ![1, C]⟩ b hsc) hbc))
        (broadcast ⟨2, ![n, C]⟩ (Scalar.ofBits (F := Ideal) .f32 0x00000000#32)) (ix2 p q)
      = reluAt X W b p q := by
  rw [maximumf_apply, body_affine_entry D hD prec X W b hlt hsc hbc p q]
  rfl

/-! ## A host program's spelling -/

/-- The host matrix product plus the bias vector laid out as a row and then spread to `n × C` is the affine part,
    entry by entry. -/
theorem host_affine_entry {n K C : ℕ} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![n, C]⟩ ![0, 1]) (p : Fin n) (q : Fin C) :
    addf (Host.dotGeneral D prec X W)
        (broadcastInDim ⟨2, ![n, C]⟩ ![0, 1] h2 (broadcastInDim ⟨2, ![1, C]⟩ ![1] h1 b)) (ix2 p q)
      = affineAt X W b p q := by
  rw [addf_apply, plain_dotGeneral_apply D hD prec X W p q]
  unfold affineAt
  refine congrArg₂ (· + ·) rfl ?_
  refine (broadcastInDim_apply ![0, 1] h2 _ (ix2 p q) (ix2 (0 : Fin 1) q) fun a => ?_).trans ?_
  · match a with
    | ⟨0, _⟩ => exact (if_pos rfl).symm
    | ⟨1, _⟩ =>
      show q.val = if C = 1 then 0 else q.val
      have hq := q.isLt
      split <;> omega
  · refine broadcastInDim_apply ![1] h1 b (ix2 (0 : Fin 1) q) (ix1 q) fun a => ?_
    match a with
    | ⟨0, _⟩ =>
      show q.val = if C = 1 then 0 else q.val
      have hq := q.isLt
      split <;> omega

/-- The same followed by the maximum with a scalar zero spread to `n × C` is the rectified layer. -/
theorem host_relu_entry {n K C : ℕ} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![n, C]⟩ ![0, 1])
    (h0 : (⟨0, ![]⟩ : Shape).BroadcastsInDim ⟨2, ![n, C]⟩ ![]) (p : Fin n) (q : Fin C) :
    maximumf
        (addf (Host.dotGeneral D prec X W)
          (broadcastInDim ⟨2, ![n, C]⟩ ![0, 1] h2 (broadcastInDim ⟨2, ![1, C]⟩ ![1] h1 b)))
        (broadcastInDim ⟨2, ![n, C]⟩ ![] h0 (constant (F := Ideal) ⟨0, ![]⟩ .f32 0x00000000#32)) (ix2 p q)
      = reluAt X W b p q := by
  rw [maximumf_apply, host_affine_entry D hD prec X W b h1 h2 p q]
  rfl

/-! ## Three layers -/

/-- Entry `(p, q)` of a three-layer perceptron: two rectified layers and an affine one, each fed the table of the
    one before. -/
def mlp3At {n d0 d1 d2 d3 : ℕ} (X : (⟨2, ![n, d0]⟩ : Shape).Idx → EReal)
    (W1 : (⟨2, ![d0, d1]⟩ : Shape).Idx → EReal) (b1 : (⟨1, ![d1]⟩ : Shape).Idx → EReal)
    (W2 : (⟨2, ![d1, d2]⟩ : Shape).Idx → EReal) (b2 : (⟨1, ![d2]⟩ : Shape).Idx → EReal)
    (W3 : (⟨2, ![d2, d3]⟩ : Shape).Idx → EReal) (b3 : (⟨1, ![d3]⟩ : Shape).Idx → EReal) (p : Fin n) (q : Fin d3) : EReal :=
  affineAt (table (reluAt (table (reluAt X W1 b1)) W2 b2)) W3 b3 p q

/-- The perceptron is computed row by row: two inputs, of any heights, that agree on row `p` of one and row `p'` of
    the other give the same entry. -/
theorem mlp3At_congr {n n' d0 d1 d2 d3 : ℕ} (X : (⟨2, ![n, d0]⟩ : Shape).Idx → EReal) (X' : (⟨2, ![n', d0]⟩ : Shape).Idx → EReal)
    (W1 : (⟨2, ![d0, d1]⟩ : Shape).Idx → EReal) (b1 : (⟨1, ![d1]⟩ : Shape).Idx → EReal)
    (W2 : (⟨2, ![d1, d2]⟩ : Shape).Idx → EReal) (b2 : (⟨1, ![d2]⟩ : Shape).Idx → EReal)
    (W3 : (⟨2, ![d2, d3]⟩ : Shape).Idx → EReal) (b3 : (⟨1, ![d3]⟩ : Shape).Idx → EReal) (p : Fin n) (p' : Fin n') (q : Fin d3)
    (hX : ∀ k : Fin d0, X (ix2 p k) = X' (ix2 p' k)) :
    mlp3At X W1 b1 W2 b2 W3 b3 p q = mlp3At X' W1 b1 W2 b2 W3 b3 p' q := by
  unfold mlp3At
  refine affineAt_congr _ _ W3 b3 p p' q fun k => ?_
  rw [table_ix2, table_ix2]
  refine reluAt_congr _ _ W2 b2 p p' k fun k' => ?_
  rw [table_ix2, table_ix2]
  exact reluAt_congr X X' W1 b1 p p' k' hX

/-- A kernel body's spelling of the three layers, each fed the narrowed result of the one before, is the perceptron,
    entry by entry. -/
theorem body_mlp3_entry {n d0 d1 d2 d3 : ℕ} {ψ : FTy}
    (D1 : DotDims ⟨2, ![n, d0]⟩ ⟨2, ![d0, d1]⟩ ⟨2, ![n, d1]⟩) (hD1 : D1 = DotDims.plain n d0 d1)
    (D2 : DotDims ⟨2, ![n, d1]⟩ ⟨2, ![d1, d2]⟩ ⟨2, ![n, d2]⟩) (hD2 : D2 = DotDims.plain n d1 d2)
    (D3 : DotDims ⟨2, ![n, d2]⟩ ⟨2, ![d2, d3]⟩ ⟨2, ![n, d3]⟩) (hD3 : D3 = DotDims.plain n d2 d3)
    (prec : Option ContractPrecision) (X : FVec Ideal ⟨2, ![n, d0]⟩ .f32)
    (W1 : FVec Ideal ⟨2, ![d0, d1]⟩ .f32) (b1 : FVec Ideal ⟨1, ![d1]⟩ .f32)
    (W2 : FVec Ideal ⟨2, ![d1, d2]⟩ .f32) (b2 : FVec Ideal ⟨1, ![d2]⟩ .f32)
    (W3 : FVec Ideal ⟨2, ![d2, d3]⟩ .f32) (b3 : FVec Ideal ⟨1, ![d3]⟩ .f32) (hlt : ψ.bits < FTy.f32.bits)
    (hsc1 : (⟨1, ![d1]⟩ : Shape).ShapeCasts ⟨2, ![1, d1]⟩) (hbc1 : (⟨2, ![1, d1]⟩ : Shape).Broadcasts ⟨2, ![n, d1]⟩)
    (hsc2 : (⟨1, ![d2]⟩ : Shape).ShapeCasts ⟨2, ![1, d2]⟩) (hbc2 : (⟨2, ![1, d2]⟩ : Shape).Broadcasts ⟨2, ![n, d2]⟩)
    (hsc3 : (⟨1, ![d3]⟩ : Shape).ShapeCasts ⟨2, ![1, d3]⟩) (hbc3 : (⟨2, ![1, d3]⟩ : Shape).Broadcasts ⟨2, ![n, d3]⟩)
    (p : Fin n) (q : Fin d3) :
    addf
        (matmul D3 prec
          (truncf ψ
            (maximumf
              (addf
                (matmul D2 prec
                  (truncf ψ
                    (maximumf
                      (addf (matmul D1 prec (truncf ψ X hlt) (truncf ψ W1 hlt) (constant ⟨2, ![n, d1]⟩ .f32 0x00000000#32))
                        (broadcastTo ⟨2, ![n, d1]⟩ (shapeCast ⟨2, ![1, d1]⟩ b1 hsc1) hbc1))
                      (broadcast ⟨2, ![n, d1]⟩ (Scalar.ofBits (F := Ideal) .f32 0x00000000#32)))
                    hlt)
                  (truncf ψ W2 hlt) (constant ⟨2, ![n, d2]⟩ .f32 0x00000000#32))
                (broadcastTo ⟨2, ![n, d2]⟩ (shapeCast ⟨2, ![1, d2]⟩ b2 hsc2) hbc2))
              (broadcast ⟨2, ![n, d2]⟩ (Scalar.ofBits (F := Ideal) .f32 0x00000000#32)))
            hlt)
          (truncf ψ W3 hlt) (constant ⟨2, ![n, d3]⟩ .f32 0x00000000#32))
        (broadcastTo ⟨2, ![n, d3]⟩ (shapeCast ⟨2, ![1, d3]⟩ b3 hsc3) hbc3) (ix2 p q)
      = mlp3At X W1 b1 W2 b2 W3 b3 p q := by
  rw [body_affine_entry D3 hD3 prec _ W3 b3 hlt hsc3 hbc3 p q]
  unfold mlp3At
  refine affineAt_congr _ _ W3 b3 p p q fun k => ?_
  rw [table_ix2, body_relu_entry D2 hD2 prec _ W2 b2 hlt hsc2 hbc2 p k]
  refine reluAt_congr _ _ W2 b2 p p k fun k' => ?_
  rw [table_ix2, body_relu_entry D1 hD1 prec X W1 b1 hlt hsc1 hbc1 p k']

/-- A host program's spelling of the three layers is the perceptron, entry by entry. -/
theorem host_mlp3_entry {n d0 d1 d2 d3 : ℕ}
    (D1 : DotDims ⟨2, ![n, d0]⟩ ⟨2, ![d0, d1]⟩ ⟨2, ![n, d1]⟩) (hD1 : D1 = DotDims.plain n d0 d1)
    (D2 : DotDims ⟨2, ![n, d1]⟩ ⟨2, ![d1, d2]⟩ ⟨2, ![n, d2]⟩) (hD2 : D2 = DotDims.plain n d1 d2)
    (D3 : DotDims ⟨2, ![n, d2]⟩ ⟨2, ![d2, d3]⟩ ⟨2, ![n, d3]⟩) (hD3 : D3 = DotDims.plain n d2 d3)
    (prec : Option ContractPrecision) (X : FVec Ideal ⟨2, ![n, d0]⟩ .f32)
    (W1 : FVec Ideal ⟨2, ![d0, d1]⟩ .f32) (b1 : FVec Ideal ⟨1, ![d1]⟩ .f32)
    (W2 : FVec Ideal ⟨2, ![d1, d2]⟩ .f32) (b2 : FVec Ideal ⟨1, ![d2]⟩ .f32)
    (W3 : FVec Ideal ⟨2, ![d2, d3]⟩ .f32) (b3 : FVec Ideal ⟨1, ![d3]⟩ .f32)
    (h11 : (⟨1, ![d1]⟩ : Shape).BroadcastsInDim ⟨2, ![1, d1]⟩ ![1]) (h12 : (⟨2, ![1, d1]⟩ : Shape).BroadcastsInDim ⟨2, ![n, d1]⟩ ![0, 1])
    (h10 : (⟨0, ![]⟩ : Shape).BroadcastsInDim ⟨2, ![n, d1]⟩ ![])
    (h21 : (⟨1, ![d2]⟩ : Shape).BroadcastsInDim ⟨2, ![1, d2]⟩ ![1]) (h22 : (⟨2, ![1, d2]⟩ : Shape).BroadcastsInDim ⟨2, ![n, d2]⟩ ![0, 1])
    (h20 : (⟨0, ![]⟩ : Shape).BroadcastsInDim ⟨2, ![n, d2]⟩ ![])
    (h31 : (⟨1, ![d3]⟩ : Shape).BroadcastsInDim ⟨2, ![1, d3]⟩ ![1]) (h32 : (⟨2, ![1, d3]⟩ : Shape).BroadcastsInDim ⟨2, ![n, d3]⟩ ![0, 1])
    (p : Fin n) (q : Fin d3) :
    addf
        (Host.dotGeneral D3 prec
          (maximumf
            (addf
              (Host.dotGeneral D2 prec
                (maximumf
                  (addf (Host.dotGeneral D1 prec X W1)
                    (broadcastInDim ⟨2, ![n, d1]⟩ ![0, 1] h12 (broadcastInDim ⟨2, ![1, d1]⟩ ![1] h11 b1)))
                  (broadcastInDim ⟨2, ![n, d1]⟩ ![] h10 (constant (F := Ideal) ⟨0, ![]⟩ .f32 0x00000000#32)))
                W2)
              (broadcastInDim ⟨2, ![n, d2]⟩ ![0, 1] h22 (broadcastInDim ⟨2, ![1, d2]⟩ ![1] h21 b2)))
            (broadcastInDim ⟨2, ![n, d2]⟩ ![] h20 (constant (F := Ideal) ⟨0, ![]⟩ .f32 0x00000000#32)))
          W3)
        (broadcastInDim ⟨2, ![n, d3]⟩ ![0, 1] h32 (broadcastInDim ⟨2, ![1, d3]⟩ ![1] h31 b3)) (ix2 p q)
      = mlp3At X W1 b1 W2 b2 W3 b3 p q := by
  rw [host_affine_entry D3 hD3 prec _ W3 b3 h31 h32 p q]
  unfold mlp3At
  refine affineAt_congr _ _ W3 b3 p p q fun k => ?_
  rw [table_ix2, host_relu_entry D2 hD2 prec _ W2 b2 h21 h22 h20 p k]
  refine reluAt_congr _ _ W2 b2 p p k fun k' => ?_
  rw [table_ix2, host_relu_entry D1 hD1 prec X W1 b1 h11 h12 h10 p k']

end Cert.Lib.Perceptron

end
-- ==== Proof.MessageSpec.lean ====
/-
  The per-edge messages as one function of whole tables.

  There are 1,600,000 edges. Row `e` of the joined table holds the 16 features of edge `e`'s target node, the 16 of
  its source node and the edge's own 8 features, side by side (40 columns). The message of edge `e` is the
  three-layer perceptron (40 → 64 → 64 → 1, rectified after the first two layers) of that row; the messages form a
  1,600,000 × 1 table.
-/
import proofs.«114200_j41240275976363_2_alg».proof.Proof.LibPerceptron

noncomputable section

namespace Cert.Message

open Idealize.ShloMosaic Idealize.ShloMosaic.ValueIdx Cert.Lib.Perceptron

/-- Three tables of 16, 16 and 8 columns set side by side make one of 40 columns. -/
abbrev Joins : Prop :=
  Shape.Concatenates [⟨2, ![1600000, 16]⟩, ⟨2, ![1600000, 16]⟩, ⟨2, ![1600000, 8]⟩] ⟨2, ![1600000, 40]⟩ 1

/-- The joined table: target-node features, source-node features, edge features. -/
def joinedTable (h : Joins) (g1 g2 : FVec Ideal ⟨2, ![1600000, 16]⟩ .f32) (ea : FVec Ideal ⟨2, ![1600000, 8]⟩ .f32) :
    FVec Ideal ⟨2, ![1600000, 40]⟩ .f32 :=
  concatenate ⟨2, ![1600000, 40]⟩ 1 [⟨⟨2, ![1600000, 16]⟩, g1⟩, ⟨⟨2, ![1600000, 16]⟩, g2⟩, ⟨⟨2, ![1600000, 8]⟩, ea⟩] h

/-- The messages: the perceptron of every row of the joined table. -/
def messages (h : Joins) (g1 g2 : FVec Ideal ⟨2, ![1600000, 16]⟩ .f32) (ea : FVec Ideal ⟨2, ![1600000, 8]⟩ .f32)
    (W1 : FVec Ideal ⟨2, ![40, 64]⟩ .f32) (b1 : FVec Ideal ⟨1, ![64]⟩ .f32)
    (W2 : FVec Ideal ⟨2, ![64, 64]⟩ .f32) (b2 : FVec Ideal ⟨1, ![64]⟩ .f32)
    (W3 : FVec Ideal ⟨2, ![64, 1]⟩ .f32) (b3 : FVec Ideal ⟨1, ![1]⟩ .f32) : FVec Ideal ⟨2, ![1600000, 1]⟩ .f32 :=
  table (mlp3At (joinedTable h g1 g2 ea) W1 b1 W2 b2 W3 b3)

theorem messages_ix2 (h : Joins) (g1 g2 : FVec Ideal ⟨2, ![1600000, 16]⟩ .f32) (ea : FVec Ideal ⟨2, ![1600000, 8]⟩ .f32)
    (W1 : FVec Ideal ⟨2, ![40, 64]⟩ .f32) (b1 : FVec Ideal ⟨1, ![64]⟩ .f32)
    (W2 : FVec Ideal ⟨2, ![64, 64]⟩ .f32) (b2 : FVec Ideal ⟨1, ![64]⟩ .f32)
    (W3 : FVec Ideal ⟨2, ![64, 1]⟩ .f32) (b3 : FVec Ideal ⟨1, ![1]⟩ .f32) (R : Fin 1600000) (q : Fin 1) :
    messages h g1 g2 ea W1 b1 W2 b2 W3 b3 (ix2 R q) = mlp3At (joinedTable h g1 g2 ea) W1 b1 W2 b2 W3 b3 R q := rfl

end Cert.Message

end
-- ==== Proof.BodyValue.lean ====
/-
  What one grid point's body stores, entry by entry.

  The body reads three row blocks (6400 rows each: the features of an edge's target node, of its source node, and
  the edge's own features), sets them side by side into a 6400 × 40 block, and runs the three-layer perceptron
  (40 → 64 → 64 → 1, rectified after the first two layers) on every row. Every narrowing to a shorter float format
  is the identity on extended reals, and a matrix product accumulated into zero is the plain sum, so the stored
  6400 × 1 block is, at row `r`, the perceptron of row `r` of the joined block.
-/
import proofs.«114200_j41240275976363_2_alg».proof.Proof.Gen.KernelIdeal.Skeleton
import proofs.«114200_j41240275976363_2_alg».proof.Proof.LibPerceptron
import proofs.«114200_j41240275976363_2_alg».proof.Proof.MessageSpec

noncomputable section

namespace Cert.KernelIdeal.Message

open Cert.KernelIdeal Cert.KernelIdeal.Gen Idealize.ShloMosaic Idealize.ShloMosaic.ValueIdx Cert.Lib.Perceptron Cert.Lib.DenseLayer Cert.Message

/-- The three row blocks set side by side. -/
def joinedBlock (x0 x1 : Vec Ideal S6400x16 .f32) (x2 : Vec Ideal S6400x8 .f32) : FVec Ideal S6400x40 .f32 :=
  concatenate S6400x40 1 [⟨S6400x16, x0⟩, ⟨S6400x16, x1⟩, ⟨S6400x8, x2⟩] concatenates_S6400x16_S6400x16_S6400x8_S6400x40_d1

/-- The stored block at row `r` is the perceptron of row `r` of the joined block. -/
theorem payload_entry (x0 x1 : Vec Ideal S6400x16 .f32) (x2 : Vec Ideal S6400x8 .f32) (x3 : Vec Ideal S40x64 .f32)
    (x4 : Vec Ideal S64 .f32) (x5 : Vec Ideal S64x64 .f32) (x6 : Vec Ideal S64 .f32) (x7 : Vec Ideal S64x1 .f32)
    (x8 : Vec Ideal S1 .f32) (r : Fin 6400) (q : Fin 1) :
    k0_pay1 (F := Ideal) x0 x1 x2 x3 x4 x5 x6 x7 x8 (ix2 r q) = mlp3At (joinedBlock x0 x1 x2) x3 x4 x5 x6 x7 x8 r q := by
  unfold k0_pay1 joinedBlock
  rw [shapeCast_self, shapeCast_self]
  exact body_mlp3_entry dot_S6400x40_S40x64_S6400x64_1_0_0_1_n_n rfl dot_S6400x64_S64x64_S6400x64_1_0_0_1_n_n rfl
    dot_S6400x64_S64x1_S6400x1_1_0_0_1_n_n rfl none _ x3 x4 x5 x6 x7 x8 bitsLt_bf16_f32
    shapeCasts_S64_S1x64 broadcasts_S1x64_S6400x64 shapeCasts_S64_S1x64 broadcasts_S1x64_S6400x64
    shapeCasts_S1_S1x1 broadcasts_S1x1_S6400x1 r q

/-- A row of a block against a row of the whole tables: if row `r` of each of the three loaded blocks is row `R` of
    the corresponding whole table, the stored block at row `r` is the message of edge `R`. (The perceptron reads its
    input one row at a time, and a row of pieces set side by side is the pieces' rows set side by side.) -/
theorem block_entry (h : Joins) (g1 g2 : FVec Ideal ⟨2, ![1600000, 16]⟩ .f32) (ea : FVec Ideal ⟨2, ![1600000, 8]⟩ .f32)
    (x0 x1 : Vec Ideal S6400x16 .f32) (x2 : Vec Ideal S6400x8 .f32) (x3 : Vec Ideal S40x64 .f32)
    (x4 : Vec Ideal S64 .f32) (x5 : Vec Ideal S64x64 .f32) (x6 : Vec Ideal S64 .f32) (x7 : Vec Ideal S64x1 .f32)
    (x8 : Vec Ideal S1 .f32) (r : Fin 6400) (R : Fin 1600000) (q : Fin 1)
    (h0 : ∀ k : Fin 16, x0 (ix2 r k) = g1 (ix2 R k)) (h1 : ∀ k : Fin 16, x1 (ix2 r k) = g2 (ix2 R k))
    (h2 : ∀ k : Fin 8, x2 (ix2 r k) = ea (ix2 R k)) :
    k0_pay1 (F := Ideal) x0 x1 x2 x3 x4 x5 x6 x7 x8 (ix2 r q) = messages h g1 g2 ea x3 x4 x5 x6 x7 x8 (ix2 R q) := by
  rw [payload_entry, messages_ix2]
  exact mlp3At_congr _ _ x3 x4 x5 x6 x7 x8 r R q
    (concat3_rows_block rfl 0 g1 g2 ea x0 x1 x2 h concatenates_S6400x16_S6400x16_S6400x8_S6400x40_d1 r R h0 h1 h2)

/-- The same with the six weight and bias blocks named separately from the whole arrays they equal (every grid point
    loads the whole of each). -/
theorem block_entry_of_eq (h : Joins) (g1 g2 : FVec Ideal ⟨2, ![1600000, 16]⟩ .f32) (ea : FVec Ideal ⟨2, ![1600000, 8]⟩ .f32)
    (W1 : FVec Ideal ⟨2, ![40, 64]⟩ .f32) (b1 : FVec Ideal ⟨1, ![64]⟩ .f32)
    (W2 : FVec Ideal ⟨2, ![64, 64]⟩ .f32) (b2 : FVec Ideal ⟨1, ![64]⟩ .f32)
    (W3 : FVec Ideal ⟨2, ![64, 1]⟩ .f32) (b3 : FVec Ideal ⟨1, ![1]⟩ .f32)
    (x0 x1 : Vec Ideal S6400x16 .f32) (x2 : Vec Ideal S6400x8 .f32) (x3 : Vec Ideal S40x64 .f32)
    (x4 : Vec Ideal S64 .f32) (x5 : Vec Ideal S64x64 .f32) (x6 : Vec Ideal S64 .f32) (x7 : Vec Ideal S64x1 .f32)
    (x8 : Vec Ideal S1 .f32) (r : Fin 6400) (R : Fin 1600000) (q : Fin 1)
    (h0 : ∀ k : Fin 16, x0 (ix2 r k) = g1 (ix2 R k)) (h1 : ∀ k : Fin 16, x1 (ix2 r k) = g2 (ix2 R k))
    (h2 : ∀ k : Fin 8, x2 (ix2 r k) = ea (ix2 R k))
    (e3 : x3 = W1) (e4 : x4 = b1) (e5 : x5 = W2) (e6 : x6 = b2) (e7 : x7 = W3) (e8 : x8 = b3) :
    k0_pay1 (F := Ideal) x0 x1 x2 x3 x4 x5 x6 x7 x8 (ix2 r q) = messages h g1 g2 ea W1 b1 W2 b2 W3 b3 (ix2 R q) := by
  subst e3 e4 e5 e6 e7 e8
  exact block_entry h g1 g2 ea x0 x1 x2 x3 x4 x5 x6 x7 x8 r R q h0 h1 h2

end Cert.KernelIdeal.Message

end
-- ==== Proof.ArrayValue.lean ====
/-
  From blocks to the whole array of messages.

  The grid has 250 points. Point `t` loads rows `6400 t … 6400 t + 6399` of the three edge-sized tables (the two
  gathered node-feature tables and the edge features) and the whole of every weight and bias array, and writes rows
  `6400 t … 6400 t + 6399` of the 1,600,000 × 1 result. What it writes at row `r` is the message of edge `6400 t + r`
  (a message depends on one row of the joined table only), so every write-back is its block of ONE whole-array
  function, the blocks tile the array (row `e` lies in the block of point `e / 6400`), and the array ends holding
  the messages.
-/
import proofs.«114200_j41240275976363_2_alg».proof.Proof.Gen.KernelIdeal.Frame
import proofs.«114200_j41240275976363_2_alg».proof.Proof.BodyValue
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Message

open Cert.KernelIdeal Cert.KernelIdeal.Gen Cert.Message

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The printed index maps of the four edge-tiled windows, decided over the grid: block `t` along the rows, block 0
    along the columns. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- The printed index maps of the six weight and bias windows: block 0 on every axis, at every point. -/
theorem idx_whole : ∀ t : Fin cfg0.N, win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The blocks a point loads -/

/-- Row `r` of grid point `t`'s block of window 0 is row `6400 t + r` of its array. -/
theorem rows_block0 (c : Dev nD) (t : Fin cfg0.N) (r : Fin 6400) (R : Fin 1600000) (hR : R.val = 6400 * t.val + r.val) (k : Fin 16) :
    (iblk m c 0 t : Vec Ideal S6400x16 .f32) (ix2 r k) = V m c main_v10 (ix2 R k) := by
  obtain ⟨r00, r01, r10, r11, r20, r21, r90, r91⟩ := idx_rows t
  unfold iblk
  rw [View.read_apply]
  refine congrArg (V m c main_v10) (funext fun a => Fin.ext ?_)
  match a with
  | ⟨0, _⟩ => show win0_0.index t (0 : Fin 2) * 6400 + 1 * r.val = R.val; rw [r00, hR]; omega
  | ⟨1, _⟩ => show win0_0.index t (1 : Fin 2) * 16 + 1 * k.val = k.val; rw [r01]; omega

/-- Row `r` of grid point `t`'s block of window 1 is row `6400 t + r` of its array. -/
theorem rows_block1 (c : Dev nD) (t : Fin cfg0.N) (r : Fin 6400) (R : Fin 1600000) (hR : R.val = 6400 * t.val + r.val) (k : Fin 16) :
    (iblk m c 1 t : Vec Ideal S6400x16 .f32) (ix2 r k) = V m c main_v17 (ix2 R k) := by
  obtain ⟨r00, r01, r10, r11, r20, r21, r90, r91⟩ := idx_rows t
  unfold iblk
  rw [View.read_apply]
  refine congrArg (V m c main_v17) (funext fun a => Fin.ext ?_)
  match a with
  | ⟨0, _⟩ => show win0_1.index t (0 : Fin 2) * 6400 + 1 * r.val = R.val; rw [r10, hR]; omega
  | ⟨1, _⟩ => show win0_1.index t (1 : Fin 2) * 16 + 1 * k.val = k.val; rw [r11]; omega

/-- Row `r` of grid point `t`'s block of window 2 is row `6400 t + r` of its array. -/
theorem rows_block2 (c : Dev nD) (t : Fin cfg0.N) (r : Fin 6400) (R : Fin 1600000) (hR : R.val = 6400 * t.val + r.val) (k : Fin 8) :
    (iblk m c 2 t : Vec Ideal S6400x8 .f32) (ix2 r k) = V m c main_arg1 (ix2 R k) := by
  obtain ⟨r00, r01, r10, r11, r20, r21, r90, r91⟩ := idx_rows t
  unfold iblk
  rw [View.read_apply]
  refine congrArg (V m c main_arg1) (funext fun a => Fin.ext ?_)
  match a with
  | ⟨0, _⟩ => show win0_2.index t (0 : Fin 2) * 6400 + 1 * r.val = R.val; rw [r20, hR]; omega
  | ⟨1, _⟩ => show win0_2.index t (1 : Fin 2) * 8 + 1 * k.val = k.val; rw [r21]; omega

/-- Every grid point's block of window 3 is the whole of its array. -/
theorem whole_block3 (c : Dev nD) (t : Fin cfg0.N) : (iblk m c 3 t : Vec Ideal S40x64 .f32) = V m c main_arg2 := by
  obtain ⟨w30, w31, w40, w50, w51, w60, w70, w71, w80⟩ := idx_whole t
  unfold iblk
  funext y
  rw [View.read_apply]
  refine congrArg (V m c main_arg2) (funext fun a => Fin.ext ?_)
  match a with
  | ⟨0, _⟩ => show win0_3.index t (0 : Fin 2) * 40 + 1 * (y 0).val = (y 0).val; rw [w30]; omega
  | ⟨1, _⟩ => show win0_3.index t (1 : Fin 2) * 64 + 1 * (y 1).val = (y 1).val; rw [w31]; omega

/-- Every grid point's block of window 4 is the whole of its array. -/
theorem whole_block4 (c : Dev nD) (t : Fin cfg0.N) : (iblk m c 4 t : Vec Ideal S64 .f32) = V m c main_arg3 := by
  obtain ⟨w30, w31, w40, w50, w51, w60, w70, w71, w80⟩ := idx_whole t
  unfold iblk
  funext y
  rw [View.read_apply]
  refine congrArg (V m c main_arg3) (funext fun a => Fin.ext ?_)
  match a with
  | ⟨0, _⟩ => show win0_4.index t (0 : Fin 1) * 64 + 1 * (y 0).val = (y 0).val; rw [w40]; omega

/-- Every grid point's block of window 5 is the whole of its array. -/
theorem whole_block5 (c : Dev nD) (t : Fin cfg0.N) : (iblk m c 5 t : Vec Ideal S64x64 .f32) = V m c main_arg4 := by
  obtain ⟨w30, w31, w40, w50, w51, w60, w70, w71, w80⟩ := idx_whole t
  unfold iblk
  funext y
  rw [View.read_apply]
  refine congrArg (V m c main_arg4) (funext fun a => Fin.ext ?_)
  match a with
  | ⟨0, _⟩ => show win0_5.index t (0 : Fin 2) * 64 + 1 * (y 0).val = (y 0).val; rw [w50]; omega
  | ⟨1, _⟩ => show win0_5.index t (1 : Fin 2) * 64 + 1 * (y 1).val = (y 1).val; rw [w51]; omega

/-- Every grid point's block of window 6 is the whole of its array. -/
theorem whole_block6 (c : Dev nD) (t : Fin cfg0.N) : (iblk m c 6 t : Vec Ideal S64 .f32) = V m c main_arg5 := by
  obtain ⟨w30, w31, w40, w50, w51, w60, w70, w71, w80⟩ := idx_whole t
  unfold iblk
  funext y
  rw [View.read_apply]
  refine congrArg (V m c main_arg5) (funext fun a => Fin.ext ?_)
  match a with
  | ⟨0, _⟩ => show win0_6.index t (0 : Fin 1) * 64 + 1 * (y 0).val = (y 0).val; rw [w60]; omega

/-- Every grid point's block of window 7 is the whole of its array. -/
theorem whole_block7 (c : Dev nD) (t : Fin cfg0.N) : (iblk m c 7 t : Vec Ideal S64x1 .f32) = V m c main_arg6 := by
  obtain ⟨w30, w31, w40, w50, w51, w60, w70, w71, w80⟩ := idx_whole t
  unfold iblk
  funext y
  rw [View.read_apply]
  refine congrArg (V m c main_arg6) (funext fun a => Fin.ext ?_)
  match a with
  | ⟨0, _⟩ => show win0_7.index t (0 : Fin 2) * 64 + 1 * (y 0).val = (y 0).val; rw [w70]; omega
  | ⟨1, _⟩ => show win0_7.index t (1 : Fin 2) * 1 + 1 * (y 1).val = (y 1).val; rw [w71]; omega

/-- Every grid point's block of window 8 is the whole of its array. -/
theorem whole_block8 (c : Dev nD) (t : Fin cfg0.N) : (iblk m c 8 t : Vec Ideal S1 .f32) = V m c main_arg7 := by
  obtain ⟨w30, w31, w40, w50, w51, w60, w70, w71, w80⟩ := idx_whole t
  unfold iblk
  funext y
  rw [View.read_apply]
  refine congrArg (V m c main_arg7) (funext fun a => Fin.ext ?_)
  match a with
  | ⟨0, _⟩ => show win0_8.index t (0 : Fin 1) * 1 + 1 * (y 0).val = (y 0).val; rw [w80]; omega

/-! ## What a point writes back, the cover, the array -/

/-- The messages as a function of the arrays the region finds. -/
abbrev regionMessages (h : Joins) (c : Dev nD) : FVec Ideal ⟨2, ![1600000, 1]⟩ .f32 :=
  messages h (V m c main_v10) (V m c main_v17) (V m c main_arg1) (V m c main_arg2) (V m c main_arg3) (V m c main_arg4)
    (V m c main_arg5) (V m c main_arg6) (V m c main_arg7)

/-- What grid point `t` writes back is block `t` of the messages. -/
theorem flushed9_eq (h : Joins) (c : Dev nD) (t : Fin cfg0.N) :
    (dats m 0 c).flushed 9 t = ((cfg0.win 9).blk t).view.read (Elt Ideal) (regionMessages m h c) := by
  show (cfg0.win 9).cut (grid0.coords t) ((dats m 0 c).after 9 t) = _
  rw [after0_9]
  unfold out0_9
  rw [View.canon_unit_zero zeros2]
  simp only [View.ld_unit_zero (S := S6400x16) zeros2, View.ld_unit_zero (S := S6400x8) zeros2,
    View.ld_unit_zero (S := S40x64) zeros2, View.ld_unit_zero (S := S64) zeros1, View.ld_unit_zero (S := S64x64) zeros2,
    View.ld_unit_zero (S := S64x1) zeros2, View.ld_unit_zero (S := S1) zeros1]
  obtain ⟨r00, r01, r10, r11, r20, r21, r90, r91⟩ := idx_rows t
  funext j
  obtain ⟨r, q, rfl⟩ : ∃ (r : Fin 6400) (q : Fin 1), j = ix2 r q := ⟨j 0, j 1, eq_ix2 j⟩
  have hN : cfg0.N = 250 := N_0
  have hlt : 6400 * t.val + r.val < 1600000 := by have := t.isLt; have := r.isLt; omega
  have hemb : ((cfg0.win 9).blk t).view.emb (ix2 r q) = ix2 (⟨6400 * t.val + r.val, hlt⟩ : Fin 1600000) q :=
    funext fun a => Fin.ext (by
      match a with
      | ⟨0, _⟩ => show win0_9.index t (0 : Fin 2) * 6400 + 1 * r.val = 6400 * t.val + r.val; rw [r90]; omega
      | ⟨1, _⟩ => show win0_9.index t (1 : Fin 2) * 1 + 1 * q.val = q.val; rw [r91]; omega)
  rw [View.read_apply, hemb]
  exact block_entry_of_eq h (V m c main_v10) (V m c main_v17) (V m c main_arg1) (V m c main_arg2) (V m c main_arg3)
    (V m c main_arg4) (V m c main_arg5) (V m c main_arg6) (V m c main_arg7)
    (iblk m c 0 t) (iblk m c 1 t) (iblk m c 2 t) (iblk m c 3 t) (iblk m c 4 t) (iblk m c 5 t) (iblk m c 6 t) (iblk m c 7 t)
    (iblk m c 8 t) r ⟨6400 * t.val + r.val, hlt⟩ q
    (rows_block0 m c t r _ rfl) (rows_block1 m c t r _ rfl) (rows_block2 m c t r _ rfl)
    (whole_block3 m c t) (whole_block4 m c t) (whole_block5 m c t) (whole_block6 m c t) (whole_block7 m c t) (whole_block8 m c t)

/-- An index of the result is in point `t`'s block iff each coordinate is in the block's range on its axis. -/
theorem mem_blk9 (t : Fin cfg0.N) (i : S1600000x1.Idx) :
    i ∈ ((cfg0.win 9).blk t).view.set ↔ ∀ a : Fin 2, win0_9.index t a * S6400x1.size a ≤ (i a).val ∧ (i a).val < win0_9.index t a * S6400x1.size a + S6400x1.size a := by
  show i ∈ ((View.whole main_v18).slice (win0_9.rect t)).set ↔ _
  rw [View.set_slice_whole, Rect.mem_set_unit]
  exact Iff.rfl

/-- Every row of the result lies in the block of the point `row / 6400`. -/
theorem covered9 (i : S1600000x1.Idx) : ∃ t : Fin cfg0.N, (cfg0.win 9).flush t = true ∧ i ∈ ((cfg0.win 9).blk t).view.set := by
  have hi0 : (i 0).val < 1600000 := (i 0).isLt
  have hi1 : (i 1).val < 1 := (i 1).isLt
  have hN : cfg0.N = 250 := N_0
  have ht : (i 0).val / 6400 < cfg0.N := by rw [hN]; omega
  obtain ⟨r00, r01, r10, r11, r20, r21, r90, r91⟩ := idx_rows ⟨(i 0).val / 6400, ht⟩
  refine ⟨⟨(i 0).val / 6400, ht⟩, flush0_9 _, ?_⟩
  rw [mem_blk9]
  intro a
  match a with
  | ⟨0, _⟩ =>
    show win0_9.index ⟨(i 0).val / 6400, ht⟩ (0 : Fin 2) * 6400 ≤ (i 0).val ∧ (i 0).val < win0_9.index ⟨(i 0).val / 6400, ht⟩ (0 : Fin 2) * 6400 + 6400
    rw [r90]
    show (i 0).val / 6400 * 6400 ≤ (i 0).val ∧ (i 0).val < (i 0).val / 6400 * 6400 + 6400
    omega
  | ⟨1, _⟩ =>
    show win0_9.index ⟨(i 0).val / 6400, ht⟩ (1 : Fin 2) * 1 ≤ (i 1).val ∧ (i 1).val < win0_9.index ⟨(i 0).val / 6400, ht⟩ (1 : Fin 2) * 1 + 1
    rw [r91]
    omega

/-- The result array after the region: the messages of the arrays the region found. -/
theorem final9 (h : Joins) (c : Dev nD) : (dats m 0 c).arrAt 9 cfg0.N = regionMessages m h c :=
  (dats m 0 c).arrAt_eq_of_cover 9 (regionMessages m h c) (fun t _ => flushed9_eq m h c t) covered9

end Cert.KernelIdeal.Message

end
-- ==== Proof.KernelRun.lean ====
/-
  The kernel's whole run, read as values.

  Before the region the host cuts the two rows of the edge list apart (sources, targets) and gathers the node
  features at each (a negative id counts from the end: it is read 50,000 higher). The region leaves the message table
  (ArrayValue). After the region the host pools: messages are added up per target node, node sums per graph, and the
  500 graph sums are halved. So the result is `pooled` of the target column, the node-to-graph column and the
  messages of the gathered tables, and the argument arrays end as they were.
-/
import proofs.«114200_j41240275976363_2_alg».proof.Proof.Gen.KernelIdeal.Frame
import proofs.«114200_j41240275976363_2_alg».proof.Proof.ArrayValue
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Message

open Cert.KernelIdeal Cert.KernelIdeal.Gen Cert.Message

/-! ## The host operations as functions -/

/-- Row 0 of the edge list, as a vector: the source node of every edge. -/
def sources (x8 : (⟨S2x1600000, .i32⟩ : BufTy).Contents (Elt Ideal)) : (⟨S1600000, .i32⟩ : BufTy).Contents (Elt Ideal) :=
  shapeCast S1600000 (extractStridedSlice S1x1600000 ![0, 0] x8 slices_S2x1600000_S1x1600000_0_0) shapeCasts_S1x1600000_S1600000

/-- Row 1 of the edge list, as a vector: the target node of every edge. -/
def targets (x8 : (⟨S2x1600000, .i32⟩ : BufTy).Contents (Elt Ideal)) : (⟨S1600000, .i32⟩ : BufTy).Contents (Elt Ideal) :=
  shapeCast S1600000 (extractStridedSlice S1x1600000 ![1, 0] x8 slices_S2x1600000_S1x1600000_1_0) shapeCasts_S1x1600000_S1600000

/-- The rows of the node-feature table at a vector of node ids, a negative id read 50,000 higher. -/
def rowsAt (x0 : (⟨S50000x16, .f32⟩ : BufTy).Contents (Elt Ideal)) (ids : (⟨S1600000, .i32⟩ : BufTy).Contents (Elt Ideal)) : (⟨S1600000x16, .f32⟩ : BufTy).Contents (Elt Ideal) :=
  Host.gather gather_S50000x16_S1600000x1_S1600000x16_1_0_n_n_0_1_116 x0
    (broadcastInDim S1600000x1 ![0] bcast_S1600000_S1600000x1_0
      (select (cmpi .slt ids (broadcastInDim S1600000 ![] bcast_S_S1600000 (constantI S_ 32 0#32)))
        (addi ids (broadcastInDim S1600000 ![] bcast_S_S1600000 (constantI S_ 32 50000#32))) ids))

/-- Everything after the message table: messages added per target node, node sums added per graph, the graph sums
    as a vector, halved. -/
def pooled (dst : (⟨S1600000, .i32⟩ : BufTy).Contents (Elt Ideal)) (batch : (⟨S50000, .i32⟩ : BufTy).Contents (Elt Ideal)) (msg : (⟨S1600000x1, .f32⟩ : BufTy).Contents (Elt Ideal)) :
    (⟨S500, .f32⟩ : BufTy).Contents (Elt Ideal) :=
  Host.divf (F := Ideal)
    (shapeCast S500
      (Host.scatterAdd (F := Ideal) scatter_S500x1_S50000x1_S50000x1_1_0_0_1
        (broadcastInDim S500x1 ![] bcast_S_S500x1 (constant (F := Ideal) S_ .f32 0x00000000#32))
        (broadcastInDim S50000x1 ![0] bcast_S50000_S50000x1_0 batch)
        (Host.scatterAdd (F := Ideal) scatter_S50000x1_S1600000x1_S1600000x1_1_0_0_1
          (broadcastInDim S50000x1 ![] bcast_S_S50000x1 (constant (F := Ideal) S_ .f32 0x00000000#32))
          (broadcastInDim S1600000x1 ![0] bcast_S1600000_S1600000x1_0 dst) msg))
      shapeCasts_S500x1_S500)
    (broadcastInDim S500 ![] bcast_S_S500 (constant (F := Ideal) S_ .f32 0x40000000#32))

/-- The kernel program's result as a function of its ten argument arrays. -/
def result (h : Joins) (x0 : (⟨S50000x16, .f32⟩ : BufTy).Contents (Elt Ideal)) (x1 : (⟨S1600000x8, .f32⟩ : BufTy).Contents (Elt Ideal)) (x2 : (⟨S40x64, .f32⟩ : BufTy).Contents (Elt Ideal))
    (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) (x8 : (⟨S2x1600000, .i32⟩ : BufTy).Contents (Elt Ideal))
    (x9 : (⟨S50000, .i32⟩ : BufTy).Contents (Elt Ideal)) : (⟨S500, .f32⟩ : BufTy).Contents (Elt Ideal) :=
  pooled (targets x8) x9 (messages h (rowsAt x0 (targets x8)) (rowsAt x0 (sources x8)) x1 x2 x3 x4 x5 x6 x7)

variable (m : (ℓ : Loc nD τ sig) → Buf (Elt Ideal) ℓ) (ρ : Dev nD → PrngReg)

/-! ## The arrays the region finds -/

/-- The target column the region (and the pooling after it) finds. -/
theorem V_targets (c : Dev nD) : V m c main_v3 = targets (m ((c : Thread nD τ).loc main_arg8)) := by
  show StableHlo.after hostOps0 (fun b => m (c, b)) (Proc.devRef .tc main_v3) = _
  after_results
  rfl

/-- Window 0's array: the node features gathered at the targets. -/
theorem V_rows_targets (c : Dev nD) : V m c main_v10 = rowsAt (m ((c : Thread nD τ).loc main_arg0)) (targets (m ((c : Thread nD τ).loc main_arg8))) := by
  show StableHlo.after hostOps0 (fun b => m (c, b)) (Proc.devRef .tc main_v10) = _
  after_results
  rfl

/-- Window 1's array: the node features gathered at the sources. -/
theorem V_rows_sources (c : Dev nD) : V m c main_v17 = rowsAt (m ((c : Thread nD τ).loc main_arg0)) (sources (m ((c : Thread nD τ).loc main_arg8))) := by
  show StableHlo.after hostOps0 (fun b => m (c, b)) (Proc.devRef .tc main_v17) = _
  after_results
  rfl

/-! ## The host operations after the region -/

/-- The result buffer after the pooling: `pooled` of the target column, the node-to-graph column and whatever the
    region left in its result array. -/
theorem tail_eq (c : Dev nD) :
    Pipeline.afterTail₀ cfgs (dats m) 0 (V0 m) [hostOps1] c main_v27
      = pooled (V m c main_v3) (m ((c : Thread nD τ).loc main_arg9)) ((dats m 0 c).arrAt 9 cfg0.N) := by
  have e18 : Pipeline.withArrays (cfgs 0).spec c (V0 m c) (fun w => (dats m 0 c).arrAt w (cfgs 0).N) (Proc.devRef .tc main_v18) = (dats m 0 c).arrAt 9 cfg0.N :=
    Pipeline.withArrays_arr spec0 launch0.win.arr_inj c _ _ 9
  have e3 : Pipeline.withArrays (cfgs 0).spec c (V0 m c) (fun w => (dats m 0 c).arrAt w (cfgs 0).N) (Proc.devRef .tc main_v3) = V m c main_v3 :=
    Pipeline.withArrays_of_ne _ c (V0 m c) _ main_v3 (by exact (by decide : ∀ w, Pipeline.arrRef spec0 w ≠ main_v3))
  have e9 : Pipeline.withArrays (cfgs 0).spec c (V0 m c) (fun w => (dats m 0 c).arrAt w (cfgs 0).N) (Proc.devRef .tc main_arg9) = (m ((c : Thread nD τ).loc main_arg9)) :=
    (Pipeline.withArrays_of_ne _ c (V0 m c) _ main_arg9 (by exact (by decide : ∀ w, Pipeline.arrRef spec0 w ≠ main_arg9))).trans
      (V_main_arg9 m c)
  unfold Pipeline.afterTail₀
  show StableHlo.after hostOps1 _ (Proc.devRef .tc main_v27) = _
  after_results
  rw [e18, e3, e9]
  rfl

/-- The result buffer as a function of the argument arrays. -/
theorem result_eq (h : Joins) (c : Dev nD) :
    Pipeline.afterTail₀ cfgs (dats m) 0 (V0 m) [hostOps1] c main_v27
      = result h (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  rw [tail_eq m c, final9 m h c, V_targets m c]
  show pooled _ _ (messages h (V m c main_v10) (V m c main_v17) (V m c main_arg1) (V m c main_arg2) (V m c main_arg3)
    (V m c main_arg4) (V m c main_arg5) (V m c main_arg6) (V m c main_arg7)) = _
  rw [V_rows_targets m c, V_rows_sources m c, V_main_arg1 m c, V_main_arg2 m c, V_main_arg3 m c, V_main_arg4 m c,
    V_main_arg5 m c, V_main_arg6 m c, V_main_arg7 m c]
  rfl

/-! ## The run -/

/-- Every weakly fair execution of the kernel program terminates with the result buffer at `result` of the argument
    arrays and the argument arrays unchanged (the frame run re-posted: the result off the pooling's last operation,
    each argument as the frame reads it). -/
theorem run (h : Joins) : θ_run defs (onTc (τ := τ) (main (F := Ideal))) ⟨m, fun _ => 0, ρ⟩ (fun r => ∀ c : Dev nD,
      r.2.mem ((c.tc : Thread nD τ).loc main_v27)
        = result h (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ hp c =>
    ⟨((hp c).2 main_v27 (Pipeline.mem_restRefs_of main_v27 (by decide) (by decide))).trans (result_eq m h c),
      ((hp c).2 main_arg0 (Pipeline.mem_restRefs_of main_arg0 (by decide) (by decide))).trans (W_main_arg0 m (dats m) c),
      ((hp c).1 2).trans (((dats m 0 c).arrAt_in 2 rfl _).trans ((A_eq m c 2).trans (V_main_arg1 m c))),
      ((hp c).1 3).trans (((dats m 0 c).arrAt_in 3 rfl _).trans ((A_eq m c 3).trans (V_main_arg2 m c))),
      ((hp c).1 4).trans (((dats m 0 c).arrAt_in 4 rfl _).trans ((A_eq m c 4).trans (V_main_arg3 m c))),
      ((hp c).1 5).trans (((dats m 0 c).arrAt_in 5 rfl _).trans ((A_eq m c 5).trans (V_main_arg4 m c))),
      ((hp c).1 6).trans (((dats m 0 c).arrAt_in 6 rfl _).trans ((A_eq m c 6).trans (V_main_arg5 m c))),
      ((hp c).1 7).trans (((dats m 0 c).arrAt_in 7 rfl _).trans ((A_eq m c 7).trans (V_main_arg6 m c))),
      ((hp c).1 8).trans (((dats m 0 c).arrAt_in 8 rfl _).trans ((A_eq m c 8).trans (V_main_arg7 m c))),
      ((hp c).2 main_arg8 (Pipeline.mem_restRefs_of main_arg8 (by decide) (by decide))).trans (W_main_arg8 m (dats m) c),
      ((hp c).2 main_arg9 (Pipeline.mem_restRefs_of main_arg9 (by decide) (by decide))).trans (W_main_arg9 m (dats m) c)⟩)
    (run_main m ρ)

end Cert.KernelIdeal.Message

end
-- ==== Proof.ReferenceValue.lean ====
/-
  The reference, read as the same two functions.

  The reference gathers the target-node and source-node feature tables, sets them beside the edge features, runs the
  three dense layers on the whole 1,600,000-row table, and then pools: the messages are added up per target node,
  the node sums per graph, and the 500 graph sums are halved. Its message table is the perceptron of every row of
  the joined table (`messages`), and everything after it is one function `pooled` of the target column, the
  node-to-graph column and the message table.
-/
import proofs.«114200_j41240275976363_2_alg».proof.Proof.Gen.ReferenceIdeal.Read
import proofs.«114200_j41240275976363_2_alg».proof.Proof.MessageSpec

noncomputable section

namespace Cert.ReferenceIdeal.Message

open Cert.ReferenceIdeal Cert.ReferenceIdeal.Gen Cert.ReferenceIdeal.Read Idealize.ShloMosaic Idealize.ShloMosaic.ValueIdx
open Cert.Message Cert.Lib.Perceptron

/-- The message table is the perceptron of every row of the joined table: each dense layer is a host matrix product
    plus its bias spread down the rows, the first two followed by a maximum with zero. -/
theorem messages_eq (x0 : (⟨S50000x16, .f32⟩ : BufTy).Contents (Elt Ideal)) (x1 : (⟨S1600000x8, .f32⟩ : BufTy).Contents (Elt Ideal)) (x2 : (⟨S40x64, .f32⟩ : BufTy).Contents (Elt Ideal))
    (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) (x8 : (⟨S2x1600000, .i32⟩ : BufTy).Contents (Elt Ideal)) :
    val_main_v32 (F := Ideal) x0 x1 x2 x3 x4 x5 x6 x7 x8
      = messages concatenates_S1600000x16_S1600000x16_S1600000x8_S1600000x40_d1 (val_main_v10 x0 x8) (val_main_v17 x0 x8) x1
          x2 x3 x4 x5 x6 x7 := by
  funext i
  obtain ⟨p, q, rfl⟩ : ∃ (p : Fin 1600000) (q : Fin 1), i = ix2 p q := ⟨i 0, i 1, eq_ix2 i⟩
  rw [messages_ix2]
  unfold val_main_v32 val_main_v31 val_main_v30 val_main_v29 val_main_v28 val_main_call1_v0 val_main_call1_cst val_main_v27
    val_main_v26 val_main_v25 val_main_v24 val_main_v23 val_main_call0_v0 val_main_call0_cst val_main_v22 val_main_v21
    val_main_v20 val_main_v19 val_main_v18 joinedTable
  exact host_mlp3_entry dot_S1600000x40_S40x64_S1600000x64_1_0_0_1_n_n rfl dot_S1600000x64_S64x64_S1600000x64_1_0_0_1_n_n rfl
    dot_S1600000x64_S64x1_S1600000x1_1_0_0_1_n_n rfl none _ x2 x3 x4 x5 x6 x7
    bcast_S64_S1x64_1 bcast_S1x64_S1600000x64_0_1 bcast_S_S1600000x64
    bcast_S64_S1x64_1 bcast_S1x64_S1600000x64_0_1 bcast_S_S1600000x64
    bcast_S1_S1x1_1 bcast_S1x1_S1600000x1_0_1 p q

/-- Everything after the message table: messages added per target node, node sums added per graph, the graph sums
    as a vector, halved. -/
def pooled (dst : (⟨S1600000, .i32⟩ : BufTy).Contents (Elt Ideal)) (batch : (⟨S50000, .i32⟩ : BufTy).Contents (Elt Ideal)) (msg : (⟨S1600000x1, .f32⟩ : BufTy).Contents (Elt Ideal)) :
    (⟨S500, .f32⟩ : BufTy).Contents (Elt Ideal) :=
  Host.divf (F := Ideal)
    (shapeCast _
      (Host.scatterAdd (F := Ideal) scatter_S500x1_S50000x1_S50000x1_1_0_0_1
        (broadcastInDim S500x1 ![] bcast_S_S500x1 (constant (F := Ideal) S_ .f32 0x00000000#32))
        (broadcastInDim S50000x1 ![0] bcast_S50000_S50000x1_0 batch)
        (Host.scatterAdd (F := Ideal) scatter_S50000x1_S1600000x1_S1600000x1_1_0_0_1
          (broadcastInDim S50000x1 ![] bcast_S_S50000x1 (constant (F := Ideal) S_ .f32 0x00000000#32))
          (broadcastInDim S1600000x1 ![0] bcast_S1600000_S1600000x1_0 dst) msg))
      shapeCasts_S500x1_S500)
    (broadcastInDim S500 ![] bcast_S_S500 (constant (F := Ideal) S_ .f32 0x40000000#32))

/-- The reference's result is `pooled` of its target column, its node-to-graph column and its message table. -/
theorem result_eq (x0 : (⟨S50000x16, .f32⟩ : BufTy).Contents (Elt Ideal)) (x1 : (⟨S1600000x8, .f32⟩ : BufTy).Contents (Elt Ideal)) (x2 : (⟨S40x64, .f32⟩ : BufTy).Contents (Elt Ideal))
    (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) (x8 : (⟨S2x1600000, .i32⟩ : BufTy).Contents (Elt Ideal)) (x9 : (⟨S50000, .i32⟩ : BufTy).Contents (Elt Ideal)) :
    val_main_v41 (F := Ideal) x0 x1 x2 x3 x4 x5 x6 x7 x8 x9
      = pooled (val_main_v3 x8) x9 (val_main_v32 x0 x1 x2 x3 x4 x5 x6 x7 x8) := by
  unfold val_main_v41 val_main_v40 val_main_cst_4 val_main_v39 val_main_v38 val_main_v37 val_main_v36 val_main_cst_3
    val_main_v35 val_main_v34 val_main_v33 val_main_cst pooled
  rfl

end Cert.ReferenceIdeal.Message

end
-- ==== Proof.lean ====
/-
  The certificate's five claims for the per-edge message kernel.

  Both programs compute, for a graph of 50,000 nodes and 1,600,000 edges: gather each edge's target-node and
  source-node features, set them beside the edge's own features (a row of 40 numbers), run a three-layer perceptron
  (40 → 64 → 64 → 1, rectified after the first two layers) on every row, add the messages up per target node, the
  node sums per graph, and halve the 500 graph sums. The kernel runs the perceptron in a grid of 250 blocks of 6400
  rows with its matrix operands narrowed to a shorter float format; the reference runs it on whole tables.

  Over the extended reals a narrowing is the identity and a matrix product accumulated into zero is the plain sum, so
  the two message tables are the same function of the same gathered tables (`messages`), entry by entry: no law
  beyond that is used, and the precondition is never opened. The gathers before and the pooling after are the same
  host operations in both programs; they are carried as functions and never opened.

  The three frames: the two kernel programs' are the generated frame certificates; the reference's is its generated
  run with the result dropped. The idealization rewrote nothing, so `preserves` has nothing to show.
-/
import proofs.«114200_j41240275976363_2_alg».proof.Defs
import proofs.«114200_j41240275976363_2_alg».proof.Proof.Gen.Kernel
import proofs.«114200_j41240275976363_2_alg».proof.Proof.Gen.Kernel.Skeleton
import proofs.«114200_j41240275976363_2_alg».proof.Proof.Gen.Kernel.Launch
import proofs.«114200_j41240275976363_2_alg».proof.Proof.Gen.Kernel.Points
import proofs.«114200_j41240275976363_2_alg».proof.Proof.Gen.Kernel.Frame
import proofs.«114200_j41240275976363_2_alg».proof.Proof.Gen.KernelIdeal
import proofs.«114200_j41240275976363_2_alg».proof.Proof.Gen.KernelIdeal.Skeleton
import proofs.«114200_j41240275976363_2_alg».proof.Proof.Gen.KernelIdeal.Launch
import proofs.«114200_j41240275976363_2_alg».proof.Proof.Gen.KernelIdeal.Points
import proofs.«114200_j41240275976363_2_alg».proof.Proof.Gen.KernelIdeal.Frame
import proofs.«114200_j41240275976363_2_alg».proof.Proof.Gen.ReferenceIdeal
import proofs.«114200_j41240275976363_2_alg».proof.Proof.Gen.Pre_finite_inputs
import proofs.«114200_j41240275976363_2_alg».proof.Proof.Gen.ReferenceIdeal.Run
import proofs.«114200_j41240275976363_2_alg».proof.Proof.Gen.ReferenceIdeal.Read
import proofs.«114200_j41240275976363_2_alg».proof.Proof.KernelRun
import proofs.«114200_j41240275976363_2_alg».proof.Proof.ReferenceValue
import Idealize.ShloMosaic.Adequacy
import Idealize.ShloMosaic.Init

noncomputable section

namespace Cert.Proof

open Idealize.ShloMosaic Idealize.ShloMosaic.TcCoe Idealize.SL.Sem

/-! ## The two programs' host operations are the same functions -/

/-- Three tables of 16, 16 and 8 columns join into one of 40: the reference's own stated fact. -/
theorem joins : Cert.Message.Joins :=
  Cert.ReferenceIdeal.Facts₀.concatenates_S1600000x16_S1600000x16_S1600000x8_S1600000x40_d1

/-- The pooling after the message table is one function in both programs. -/
theorem pooled_eq : Cert.KernelIdeal.Message.pooled = Cert.ReferenceIdeal.Message.pooled := rfl

/-- The target column is one function of the edge list in both programs. -/
theorem targets_eq : Cert.KernelIdeal.Message.targets = Cert.ReferenceIdeal.Read.val_main_v3 (F := Ideal) := rfl

/-- The node features gathered at the targets are one function in both programs. -/
theorem rows_targets_eq (x0 : (⟨Cert.KernelIdeal.S50000x16, .f32⟩ : BufTy).Contents (Elt Ideal))
    (x8 : (⟨Cert.KernelIdeal.S2x1600000, .i32⟩ : BufTy).Contents (Elt Ideal)) :
    Cert.KernelIdeal.Message.rowsAt x0 (Cert.KernelIdeal.Message.targets x8) = Cert.ReferenceIdeal.Read.val_main_v10 (F := Ideal) x0 x8 := rfl

/-- The node features gathered at the sources are one function in both programs. -/
theorem rows_sources_eq (x0 : (⟨Cert.KernelIdeal.S50000x16, .f32⟩ : BufTy).Contents (Elt Ideal))
    (x8 : (⟨Cert.KernelIdeal.S2x1600000, .i32⟩ : BufTy).Contents (Elt Ideal)) :
    Cert.KernelIdeal.Message.rowsAt x0 (Cert.KernelIdeal.Message.sources x8) = Cert.ReferenceIdeal.Read.val_main_v17 (F := Ideal) x0 x8 := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the ten arguments both programs end with the result at `result` of the arguments:
    the kernel program by its run read as values, the reference by its generated run, its message table read as
    `messages` and its pooling as `pooled`. -/
theorem algebraic : Cert.algebraic_KernelIdeal_ReferenceIdeal := by
  intro m ρ m' ρ' _ hagree
  refine ⟨fun c => Cert.KernelIdeal.Message.result joins (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Message.run m ρ joins, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4, a5, a6, a7, a8, a9⟩ := hagree c
  rw [Cert.ReferenceIdeal.Read.val_main_v41_eq, Cert.ReferenceIdeal.Message.result_eq, Cert.ReferenceIdeal.Message.messages_eq, a0, a1, a2, a3, a4, a5, a6, a7, a8, a9]
  show _ = Cert.KernelIdeal.Message.result joins _ _ _ _ _ _ _ _ _ _
  unfold Cert.KernelIdeal.Message.result
  rw [rows_targets_eq, rows_sources_eq, targets_eq, pooled_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
